-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S768x128 : Shape := ⟨2, ![768, 128]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_

variable [Facts]

def fn {F : FTy → Type} [FloatOps F] (main_arg0 : FVec F S8192x768 .f32) (main_arg1 : FVec F S768x128 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S768x128 .f32 := Host.absf main_arg1
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  main_v8
-- ==== Kernel.lean ====
abbrev S8192x768 : Shape := ⟨2, ![8192, 768]⟩
abbrev S768x128 : Shape := ⟨2, ![768, 128]⟩
abbrev S8192x128 : Shape := ⟨2, ![8192, 128]⟩
abbrev S2048x768 : Shape := ⟨2, ![2048, 768]⟩
abbrev S2048x128 : Shape := ⟨2, ![2048, 128]⟩
abbrev S8192x8192 : Shape := ⟨2, ![8192, 8192]⟩
abbrev S2048x1024 : Shape := ⟨2, ![2048, 1024]⟩
abbrev S1024x128 : Shape := ⟨2, ![1024, 128]⟩
abbrev S2048 : Shape := ⟨1, ![2048]⟩
abbrev S2048x1 : Shape := ⟨2, ![2048, 1]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x768, .f32⟩
  | .hbm, ⟨1, _⟩ => ⟨S768x128, .f32⟩
  | .hbm, ⟨2, _⟩ => ⟨S8192x128, .f32⟩
  | .hbm, ⟨3, _⟩ => ⟨S8192x8192, .f32⟩
  | .local _ .vmem, ⟨0, _⟩ => ⟨S2048x768, .f32⟩
  | .local _ .vmem, ⟨1, _⟩ => ⟨S2048x768, .f32⟩
  | .local _ .vmem, ⟨2, _⟩ => ⟨S768x128, .f32⟩
  | .local _ .vmem, ⟨3, _⟩ => ⟨S2048x128, .f32⟩
  | .local _ .vmem, ⟨4, _⟩ => ⟨S2048x128, .f32⟩
  | .local _ .vmem, ⟨5, _⟩ => ⟨S8192x128, .f32⟩
  | .local _ .vmem, ⟨6, _⟩ => ⟨S2048x1024, .f32⟩
  | .local _ .vmem, ⟨7, _⟩ => ⟨S2048x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def k1_mult1 (i : grid1.Coords) : BitVec 32 :=
  let arg0 : BitVec 32 := BitVec.ofNat 32 (i 0).val
  let c2048_i32 : BitVec 32 := 2048#32
  let v0 : BitVec 32 := Scalar.muli arg0 c2048_i32
  v0
def k1_mult2 (i : grid1.Coords) : BitVec 32 :=
  let arg1 : BitVec 32 := BitVec.ofNat 32 (i 1).val
  let c1024_i32 : BitVec 32 := 1024#32
  let v2 : BitVec 32 := Scalar.muli arg1 c1024_i32
  v2
def k1_off1 (i : grid1.Coords) : Fin 2 → Nat :=
  let arg0 : BitVec 32 := BitVec.ofNat 32 (i 0).val
  let c2048_i32 : BitVec 32 := 2048#32
  let v0 : BitVec 32 := Scalar.muli arg0 c2048_i32
  let v1 : BitVec 32 := v0
  let v4 : Index := Scalar.indexCast v1
  let c0 : Index := 0#32
  ![v4.toNat, 0]
def k1_off2 (i : grid1.Coords) : Fin 2 → Nat :=
  let arg1 : BitVec 32 := BitVec.ofNat 32 (i 1).val
  let c1024_i32 : BitVec 32 := 1024#32
  let v2 : BitVec 32 := Scalar.muli arg1 c1024_i32
  let v3 : BitVec 32 := v2
  let v7 : Index := Scalar.indexCast v3
  let c0_0 : Index := 0#32
  ![v7.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S8192x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  inb_S2048x768_S2048x768_0_0 : ∀ a, (![0, 0] : Fin 2 → Nat) a + S2048x768.size a ≤ S2048x768.size a
  h_S2048x768 : 0 < S2048x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  h_S1024x128 : 0 < S1024x128.numel
  shapeCasts_S1024x128_S1024x128 : S1024x128.ShapeCasts S1024x128
  reduces_S2048x128_S2048 : S2048x128.Reduces [1] S2048
  shapeCasts_S2048_S2048x1 : S2048.ShapeCasts S2048x1
  reduces_S1024x128_S1024 : S1024x128.Reduces [1] S1024
  shapeCasts_S1024_S1024x1 : S1024.ShapeCasts S1024x1
  transposes_S1024x1_p1_0_S1x1024 : S1024x1.Transposes [1, 0] S1x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x768_S768x128_S2048x128_1_0_0_1_n_n_wf : DotDims.WF S2048x768 S768x128 S2048x128 [1] [0] [0] [1] [] []
  dot_S2048x128_S1024x128_S2048x1024_1_1_0_0_n_n_wf : DotDims.WF S2048x128 S1024x128 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S8192x768.size a
  hwx0_0 : ∀ i : grid0.Coords, EltTy.bits .f32 = 32 ∨ (Rect.block (s := S8192x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S8192x128.size a
  hwx0_2 : ∀ i : grid0.Coords, EltTy.bits .f32 = 32 ∨ (Rect.block (s := S8192x128) S2048x128.size (cc0_transform_2 i) (hinb0_2 i)).WholeWords (EltTy.packing .f32)
  hrank1 : 0 < grid1.rank
  k1_mult1_dvd : ∀ i : grid1.Coords, 8 ∣ (k1_mult1 i).toNat
  k1_mult2_dvd : ∀ i : grid1.Coords, 8 ∣ (k1_mult2 i).toNat
  k1_off1_inb : ∀ i : grid1.Coords, ∀ a, (k1_off1 i) a + S2048x128.size a ≤ S8192x128.size a
  k1_off2_inb : ∀ i : grid1.Coords, ∀ a, (k1_off2 i) a + S1024x128.size a ≤ S8192x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S8192x128.size a
  hwx1_0 : ∀ i : grid1.Coords, EltTy.bits .f32 = 32 ∨ (Rect.block (s := S8192x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S8192x8192.size a
  hwx1_1 : ∀ i : grid1.Coords, EltTy.bits .f32 = 32 ∨ (Rect.block (s := S8192x8192) S2048x1024.size (cc1_transform_1 i) (hinb1_1 i)).WholeWords (EltTy.packing .f32)

variable [Facts₀]

def dot_S2048x768_S768x128_S2048x128_1_0_0_1_n_n : DotDims S2048x768 S768x128 S2048x128 where
  lhsContracting := [1]
  rhsContracting := [0]
  lhsNonContracting := [0]
  rhsNonContracting := [1]
  lhsBatch := []
  rhsBatch := []
  wf := dot_S2048x768_S768x128_S2048x128_1_0_0_1_n_n_wf
def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S8192x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8192x768 : Shape := ⟨2, ![8192, 768]⟩
abbrev S768x128 : Shape := ⟨2, ![768, 128]⟩
abbrev S8192x128 : Shape := ⟨2, ![8192, 128]⟩
abbrev S_ : Shape := ⟨0, ![]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 17
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S768x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S128x8192, .f32⟩
  | .hbm, ⟨7, _⟩ => ⟨S8192x8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x768_S768x128_S8192x128_1_0_0_1_n_n_wf : DotDims.WF S8192x768 S768x128 S8192x128 [1] [0] [0] [1] [] []
  dot_S8192x128_S128x8192_S8192x8192_1_0_0_1_n_n_wf : DotDims.WF S8192x128 S128x8192 S8192x8192 [1] [0] [0] [1] [] []

variable [Facts₀]

def dot_S8192x768_S768x128_S8192x128_1_0_0_1_n_n : DotDims S8192x768 S768x128 S8192x128 where
  lhsContracting := [1]
  rhsContracting := [0]
  lhsNonContracting := [0]
  rhsNonContracting := [1]
  lhsBatch := []
  rhsBatch := []
  wf := dot_S8192x768_S768x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  Squared pairwise distances of projected rows, as one function on the extended reals.

  For a matrix `pe` of 8192 rows of 768 entries and a projection `w` of 768 rows of 128 entries, the projected
  matrix `t = pe · w` has entry (r, c) the sum over k of `pe (r, k) * w (k, c)`. The squared distance between rows
  r and s of `t` is written through the identity ‖a − b‖² = ‖a‖² + ‖b‖² − 2 a·b: the squared norm of row r is the sum
  over k of `t (r, k) * t (r, k)`, the inner product of rows r and s the sum over k of `t (r, k) * t (s, k)`, and the
  result at (r, s) is (‖t r‖² + ‖t s‖²) − 2 · (t r · t s), the factor 2 being the value of the f32 word 0x40000000.

  Sums are finite sums in the extended reals, where addition is commutative and associative, so no order of
  summation is recorded; products, the outer sum and the difference are taken in the order written.
-/
import Idealize.ShloMosaic.PureOps.Ideal
import Idealize.ShloMosaic.Lib.ValueIdx

noncomputable section

namespace Cert.PairDist

open Idealize.ShloMosaic Idealize.ShloMosaic.ValueIdx

/-- Indices of the input matrix, the projection, the projected matrix and the distance matrix. -/
abbrev IdxPE : Type := (⟨2, ![8192, 768]⟩ : Shape).Idx
abbrev IdxW : Type := (⟨2, ![768, 128]⟩ : Shape).Idx
abbrev IdxT : Type := (⟨2, ![8192, 128]⟩ : Shape).Idx
abbrev IdxD : Type := (⟨2, ![8192, 8192]⟩ : Shape).Idx

/-- Entry (r, c) of the product `pe · w`. -/
def projAt (pe : IdxPE → EReal) (w : IdxW → EReal) (r : Fin 8192) (c : Fin 128) : EReal :=
  ∑ k : Fin 768, pe (ix2 r k) * w (ix2 k c)

/-- The projected matrix `pe · w` as an array. -/
def projArr (pe : IdxPE → EReal) (w : IdxW → EReal) : IdxT → EReal :=
  fun i => projAt pe w (i 0) (i 1)

theorem projArr_ix2 (pe : IdxPE → EReal) (w : IdxW → EReal) (r : Fin 8192) (c : Fin 128) :
    projArr pe w (ix2 r c) = projAt pe w r c := rfl

/-- The squared norm of row r of `t`. -/
def sqNorm (t : IdxT → EReal) (r : Fin 8192) : EReal := ∑ k : Fin 128, t (ix2 r k) * t (ix2 r k)

/-- The inner product of rows r and s of `t`. -/
def inner (t : IdxT → EReal) (r s : Fin 8192) : EReal := ∑ k : Fin 128, t (ix2 r k) * t (ix2 s k)

/-- The squared distance between rows r and s of `t`: (‖t r‖² + ‖t s‖²) − 2 · (t r · t s). -/
def distAt (t : IdxT → EReal) (r s : Fin 8192) : EReal :=
  (sqNorm t r + sqNorm t s) - Ideal.ofBits .f32 0x40000000#32 * inner t r s

/-- All squared distances between rows of `t`, as an array. -/
def distArr (t : IdxT → EReal) : IdxD → EReal := fun i => distAt t (i 0) (i 1)

theorem distArr_ix2 (t : IdxT → EReal) (r s : Fin 8192) : distArr t (ix2 r s) = distAt t r s := rfl

end Cert.PairDist

end
-- ==== Proof.RefIsSpec.lean ====
/-
  The reference computes the squared pairwise distances of the projected rows.

  Read one host operation at a time, the reference's result at (r, s) is
    (0 + Σₖ t(r,k)·t(r,k)) + (0 + Σₖ t(s,k)·t(s,k)) − 2 · Σₖ t(r,k)·tᵀ(k,s),
  where t = pe · w is its first matrix product and tᵀ its transpose. The two column and row broadcasts only move the
  row sums to position (r, ·) and (·, s); the transpose read at (k, s) is t at (s, k); the initial value of each row
  sum is the zero word, and 0 + x = x on the extended reals. What is left is the specification, term for term.
-/
import proofs.«136250_j44040594653319_2_alg».proof.Proof.Gen.ReferenceIdeal.Read
import proofs.«136250_j44040594653319_2_alg».proof.Proof.Spec
import Idealize.ShloMosaic.PureOps.Ideal.Laws

noncomputable section

namespace Cert.PairDist.Ref

open Idealize.ShloMosaic Idealize.ShloMosaic.ValueIdx Cert.ReferenceIdeal Cert.ReferenceIdeal.Read Cert.PairDist

/-- The operand indices of the first product at (r, c) and summation index k are (r, k) and (k, c). -/
theorem lidx_v0 (i : IdxT) (k : Fin 768) : lidx_main_v0 i k = ix2 (n0 := 8192) (n1 := 768) (i 0) k :=
  funext fun a => Fin.ext (by match a with | ⟨0, _⟩ => rfl | ⟨1, _⟩ => rfl)
theorem ridx_v0 (i : IdxT) (k : Fin 768) : ridx_main_v0 i k = ix2 (n0 := 768) (n1 := 128) k (i 1) :=
  funext fun a => Fin.ext (by match a with | ⟨0, _⟩ => rfl | ⟨1, _⟩ => rfl)

/-- The reference's first product is the projected matrix. -/
theorem v0_eq (x0 : IdxPE → EReal) (x1 : IdxW → EReal) : val_main_v0 (F := Ideal) x0 x1 = projArr x0 x1 := by
  funext i
  rw [val_main_v0_apply]
  simp only [lidx_v0, ridx_v0]
  rfl

/-- Where each broadcast row sum and each factor of the second product is read, by coordinates. -/
theorem idx_sq_row (r s : Fin 8192) (k : Fin 128) :
    idx_main_v2 (idx_main_v5 (idx_main_v7 (ix2 r s))) k = ix2 r k :=
  funext fun a => Fin.ext (by match a with | ⟨0, _⟩ => rfl | ⟨1, _⟩ => rfl)
theorem idx_sq_col (r s : Fin 8192) (k : Fin 128) :
    idx_main_v2 (idx_main_v6 (idx_main_v8 (ix2 r s))) k = ix2 s k :=
  funext fun a => Fin.ext (by match a with | ⟨0, _⟩ => rfl | ⟨1, _⟩ => rfl)
theorem idx_gram_l (r s : Fin 8192) (k : Fin 128) : lidx_main_v4 (ix2 r s) k = ix2 r k :=
  funext fun a => Fin.ext (by match a with | ⟨0, _⟩ => rfl | ⟨1, _⟩ => rfl)
theorem idx_gram_r (r s : Fin 8192) (k : Fin 128) : idx_main_v3 (ridx_main_v4 (ix2 r s) k) = ix2 s k :=
  funext fun a => Fin.ext (by match a with | ⟨0, _⟩ => rfl | ⟨1, _⟩ => rfl)

/-- The reference's result is the array of squared distances between the projected rows. -/
theorem result_eq (x0 : IdxPE → EReal) (x1 : IdxW → EReal) :
    val_main_v12 (F := Ideal) x0 x1 = distArr (projArr x0 x1) := by
  funext i
  obtain ⟨r, s, rfl⟩ : ∃ (r s : Fin 8192), i = ix2 r s := ⟨i 0, i 1, eq_ix2 i⟩
  rw [val_main_v12_apply, val_main_v9_apply, val_main_v11_apply, val_main_v7_apply, val_main_v8_apply,
    val_main_v5_apply, val_main_v6_apply, val_main_v2_apply, val_main_v2_apply, val_main_v10_apply,
    val_main_cst_0_apply, val_main_cst_apply, val_main_v4_apply]
  simp only [val_main_v1_apply, val_main_v3_apply, idx_sq_row, idx_sq_col, idx_gram_l, idx_gram_r, v0_eq,
    Ideal.mulf_def, Ideal.addf_def, Ideal.subf_def, Ideal.ofBits_def, Ideal.ofBits_zero_f32, zero_add]
  rfl

end Cert.PairDist.Ref

end
-- ==== Proof.KernelRun.lean ====
/-
  The two-kernel program's run, with its result array named.

  The program launches the projection kernel and then the pairwise kernel; nothing else touches memory. Every weakly
  fair execution therefore ends with each unscoped buffer at the contents the second region leaves: the result array
  at what the pairwise kernel's write-backs fold to, the two argument arrays as launched. This is the run the frame
  claim is read from, stated with the result array kept.
-/
import proofs.«136250_j44040594653319_2_alg».proof.Proof.Gen.KernelIdeal.Frame

set_option maxRecDepth 16384

noncomputable section

namespace Cert.PairDist.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result array at the contents the
    second region leaves it with and the argument arrays as launched. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c)⟩)

end Cert.PairDist.Kernel

end
-- ==== Proof.ProjPayload.lean ====
/-
  The projection kernel's block, read at an index.

  The first kernel multiplies a block of 2048 rows of `pe` by the whole projection `w` on the matrix unit, into a
  zero accumulator. On the extended reals the change of format to bf16 is the identity and the accumulator adds
  nothing, so the block's entry (p, q) is the sum over k of `x (p, k) * w (k, q)`: the contraction runs over one
  axis, and the operand indices at output (p, q) and contraction coordinate k are (p, k) and (k, q).
-/
import proofs.«136250_j44040594653319_2_alg».proof.Proof.Gen.KernelIdeal.Skeleton
import Idealize.ShloMosaic.PureOps.Ideal.Laws
import Idealize.ShloMosaic.Lib.ValueIdx

noncomputable section

namespace Cert.PairDist.Proj

open Idealize.ShloMosaic Idealize.ShloMosaic.ValueIdx Cert.KernelIdeal Cert.KernelIdeal.Gen

/-- The dimension numbers of the projection's product: rows of the left operand against columns of the right. -/
abbrev DP : DotDims S2048x768 S768x128 S2048x128 := dot_S2048x768_S768x128_S2048x128_1_0_0_1_n_n

theorem lhs_row (i : S2048x128.Idx) (q : DP.contr.Idx) : (DP.lhsIdx i q 0).val = (i 0).val := by
  unfold DotDims.lhsIdx
  rw [dif_neg (show ¬(0 : Fin S2048x768.rank) ∈ DP.lhsBatch by decide),
    dif_pos (show (0 : Fin S2048x768.rank) ∈ DP.lhsNonContracting by decide)]
  rfl
theorem lhs_col (i : S2048x128.Idx) (q : DP.contr.Idx) : (DP.lhsIdx i q 1).val = (q ⟨0, by decide⟩).val :=
  DP.lhsIdx_val_of_single rfl i q
theorem rhs_row (i : S2048x128.Idx) (q : DP.contr.Idx) : (DP.rhsIdx i q 0).val = (q ⟨0, by decide⟩).val :=
  DP.rhsIdx_val_of_single rfl i q
theorem rhs_col (i : S2048x128.Idx) (q : DP.contr.Idx) : (DP.rhsIdx i q 1).val = (i 1).val := by
  unfold DotDims.rhsIdx
  rw [dif_neg (show ¬(1 : Fin S768x128.rank) ∈ DP.rhsBatch by decide),
    dif_pos (show (1 : Fin S768x128.rank) ∈ DP.rhsNonContracting by decide)]
  rfl

/-- The block the projection kernel stores, at (p, q): the sum over k of `x (p, k) * w (k, q)`. -/
theorem pay_apply (x : Vec Ideal S2048x768 .f32) (w : Vec Ideal S768x128 .f32) (p : Fin 2048) (q : Fin 128) :
    k0_pay1 (F := Ideal) x w (ix2 p q) = ∑ k : Fin 768, x (ix2 p k) * w (ix2 k q) := by
  unfold k0_pay1
  refine (Ideal.matmul_constant_zero_apply DP none _ _ (ix2 p q)).trans ?_
  rw [← Equiv.sum_comp (contrEquiv1 DP 768 rfl rfl).symm]
  refine Finset.sum_congr rfl fun k _ => ?_
  have hk := contrEquiv1_symm_val DP 768 rfl rfl k
  have el : DP.lhsIdx (ix2 p q) ((contrEquiv1 DP 768 rfl rfl).symm k) = ix2 p k := funext fun a => Fin.ext (by
    match a with
    | ⟨0, _⟩ => exact lhs_row _ _
    | ⟨1, _⟩ => exact (lhs_col _ _).trans hk)
  have er : DP.rhsIdx (ix2 p q) ((contrEquiv1 DP 768 rfl rfl).symm k) = ix2 k q := funext fun a => Fin.ext (by
    match a with
    | ⟨0, _⟩ => exact (rhs_row _ _).trans hk
    | ⟨1, _⟩ => exact rhs_col _ _)
  rw [el, er]
  rfl

end Cert.PairDist.Proj

end
-- ==== Proof.ProjValue.lean ====
/-
  What the first kernel leaves in its output array: the projected matrix.

  The grid of the projection kernel has four points; point t reads rows 2048·t … 2048·t + 2047 of `pe` and the whole
  projection `w`, and writes back rows 2048·t … 2048·t + 2047 of the output. A block's element (p, q) is the sum over
  k of `pe (2048·t + p, k) * w (k, q)`, which is entry (2048·t + p, q) of `pe · w`: every write-back is its block of
  one whole-array function. Row r of the output lies in the block of point r / 2048, so the four blocks cover the
  array and it ends holding `pe · w`. The statement is made for any contents the region is entered with.
-/
import proofs.«136250_j44040594653319_2_alg».proof.Proof.Gen.KernelIdeal.Frame
import proofs.«136250_j44040594653319_2_alg».proof.Proof.Spec
import proofs.«136250_j44040594653319_2_alg».proof.Proof.ProjPayload
import Idealize.ShloMosaic.Lib.Pipeline.Value

noncomputable section

namespace Cert.PairDist.Proj

open Idealize.ShloMosaic Idealize.ShloMosaic.TcCoe Idealize.ShloMosaic.ValueIdx Idealize.SL.Sem
open Idealize.ShloMosaic.Pipeline (Dat)
open Cert.KernelIdeal Cert.KernelIdeal.Gen Cert.PairDist

variable (V : (c : Dev nD) → (b : Ref sig .tc) → Buf (Elt Ideal) ((c : Thread nD τ).loc b))

theorem hz2 : (![0, 0] : Fin 2 → Nat) = fun _ => 0 := funext fun a => by fin_cases a <;> rfl

/-- The block indices over the grid: the row block of `pe` and of the output is the point's number, every other
    block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of an input window reads the region-entry array under the block. -/
theorem iblk_pe (c : Dev nD) (t : Fin cfg0.N) (y : S2048x768.Idx) :
    iblk0 V c 0 t y = V c main_arg0 (((cfg0.win 0).blk t).view.emb y) := rfl
theorem iblk_w (c : Dev nD) (t : Fin cfg0.N) (y : S768x128.Idx) :
    iblk0 V c 1 t y = V c main_arg1 (((cfg0.win 1).blk t).view.emb y) := rfl

/-- What point `t` writes back is its block of the projected matrix. -/
theorem flushed_eq (c : Dev nD) (t : Fin cfg0.N) :
    (dat0 V c).flushed 2 t = ((cfg0.win 2).blk t).view.read (Elt Ideal) (projArr (V c main_arg0) (V c main_arg1)) := by
  show (cfg0.win 2).cut (grid0.coords t) ((dat0 V c).after 2 t) = _
  rw [after0_2]
  unfold out0_2
  rw [View.canon_unit_zero hz2]
  simp only [View.ld_unit_zero (S := S2048x768) hz2, View.ld_unit_zero (S := S768x128) hz2]
  obtain ⟨e0, e1, e2, e3, e4, e5⟩ := idx_facts t
  funext j
  obtain ⟨p, q, rfl⟩ : ∃ (p : Fin 2048) (q : Fin 128), j = ix2 p q := ⟨j 0, j 1, eq_ix2 j⟩
  show k0_pay1 (iblk0 V c 0 t) (iblk0 V c 1 t) (ix2 p q)
    = projArr (V c main_arg0) (V c main_arg1) (((cfg0.win 2).blk t).view.emb (ix2 p q))
  refine (pay_apply (iblk0 V c 0 t) (iblk0 V c 1 t) p q).trans ?_
  unfold projArr projAt
  refine Finset.sum_congr rfl fun k _ => ?_
  rw [iblk_pe, iblk_w]
  refine congrArg₂ (· * ·) (congrArg (V c main_arg0) ?_) (congrArg (V c main_arg1) ?_)
  · funext a; apply Fin.ext
    match a with
    | ⟨0, _⟩ => show win0_0.index t (0 : Fin 2) * 2048 + 1 * p.val = win0_2.index t (0 : Fin 2) * 2048 + 1 * p.val; rw [e0, e4]
    | ⟨1, _⟩ => show win0_0.index t (1 : Fin 2) * 768 + 1 * k.val = k.val; rw [e1]; omega
  · funext a; apply Fin.ext
    match a with
    | ⟨0, _⟩ => show win0_1.index t (0 : Fin 2) * 768 + 1 * k.val = k.val; rw [e2]; omega
    | ⟨1, _⟩ => show win0_1.index t (1 : Fin 2) * 128 + 1 * q.val = win0_2.index t (1 : Fin 2) * 128 + 1 * q.val; rw [e3, e5]

/-- An index of the output array is in point `t`'s block iff each coordinate is in the block's range on its axis. -/
theorem mem_blk (t : Fin cfg0.N) (i : S8192x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v0).slice (win0_2.rect t)).set ↔ _
  rw [View.set_slice_whole, Rect.mem_set_unit]
  exact Iff.rfl

/-- Every row block is some point's. -/
theorem idx_onto : ∀ q0 : Fin 4, ∃ t : Fin cfg0.N, win0_2.index t = ![q0.val, 0] :=
  (by decide +kernel : ∀ q0 : Fin 4, ∃ t : Fin grid0.N, win0_2.index t = ![q0.val, 0])

/-- Row r lies in the block of point r / 2048: the four blocks cover the output array. -/
theorem cover (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 128 ≤ (i 1).val ∧ (i 1).val < win0_2.index t (1 : Fin 2) * 128 + 128; omega

/-- The first kernel's output array ends holding the projected matrix of the arrays the region was entered with. -/
theorem final (c : Dev nD) :
    (dat0 V c).arrAt 2 cfg0.N = projArr (V c main_arg0) (V c main_arg1) :=
  (dat0 V c).arrAt_eq_of_cover 2 (projArr (V c main_arg0) (V c main_arg1)) (fun t _ => flushed_eq V c t) cover

end Cert.PairDist.Proj

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.PairPayload.lean ====
/-
  The pairwise kernel's block, read at an index.

  At a grid point the second kernel holds 2048 rows `a` and 1024 rows `b` of the projected matrix and stores, at
  (p, q), the number (‖a p‖² + ‖b q‖²) − 2 · (a p · b q). The three parts are read separately:
  * the squared norms of the rows of `a`, a sum along each row kept as a column and repeated across the 1024 columns,
    read at (p, q) as the sum over k of `a (p, k) * a (p, k)`;
  * the squared norms of the rows of `b`, kept as a column, turned into a row and repeated down the 2048 rows, read
    at (p, q) as the sum over k of `b (q, k) * b (q, k)`;
  * the product of `a` with `b` transposed on the matrix unit into a zero accumulator, both operands contracted
    along their second axis, read at (p, q) as the sum over k of `a (p, k) * b (q, k)`.
  A row sum starts from the zero word, which adds nothing; a change of format is the identity on the extended reals.
-/
import proofs.«136250_j44040594653319_2_alg».proof.Proof.Gen.KernelIdeal.Skeleton
import proofs.«136250_j44040594653319_2_alg».proof.Proof.LibColumnLayout
import Idealize.ShloMosaic.PureOps.Ideal.Laws
import Idealize.ShloMosaic.Lib.ValueIdx
import Idealize.ShloMosaic.Lib.ValueLayout
import Idealize.ShloMosaic.Lib.Pipeline.Value

noncomputable section

namespace Cert.PairDist.Pair

open Idealize.ShloMosaic Idealize.ShloMosaic.ValueIdx Cert.KernelIdeal Cert.KernelIdeal.Gen Cert.ColumnLayout

/-! ## The three parts of the stored value, named -/

/-- The sum of squares along each of 2048 rows. -/
def rowSqA (v : FVec Ideal S2048x128 .f32) : FVec Ideal S2048 .f32 :=
  multiReduction .add [1] S2048 (mulf v v) 0x00000000#32 reduces_S2048x128_S2048 (.inl rfl) rfl
/-- The sum of squares along each of 1024 rows. -/
def rowSqB (v : FVec Ideal S1024x128 .f32) : FVec Ideal S1024 .f32 :=
  multiReduction .add [1] S1024 (mulf v v) 0x00000000#32 reduces_S1024x128_S1024 (.inl rfl) rfl

/-- The squared norms of the rows of `a`, as a column repeated across the block. -/
def normsA (a : Vec Ideal S2048x128 .f32) : FVec Ideal S2048x1024 .f32 :=
  broadcastTo S2048x1024 (shapeCast S2048x1 (rowSqA (shapeCast S2048x128 a shapeCasts_S2048x128_S2048x128))
    shapeCasts_S2048_S2048x1) broadcasts_S2048x1_S2048x1024
/-- The squared norms of the rows of `b`, as a row repeated down the block. -/
def normsB (b : Vec Ideal S1024x128 .f32) : FVec Ideal S2048x1024 .f32 :=
  broadcastTo S2048x1024 (transpose S1x1024 [1, 0] (shapeCast S1024x1 (rowSqB (shapeCast S1024x128 b shapeCasts_S1024x128_S1024x128))
    shapeCasts_S1024_S1024x1) transposes_S1024x1_p1_0_S1x1024) broadcasts_S1x1024_S2048x1024

/-- The dimension numbers of the product of `a` with `b` transposed: both operands contracted along axis 1. -/
abbrev DG : DotDims S2048x128 S1024x128 S2048x1024 := dot_S2048x128_S1024x128_S2048x1024_1_1_0_0_n_n

/-- The inner products of the rows of `a` with the rows of `b`. -/
def gram (a : Vec Ideal S2048x128 .f32) (b : Vec Ideal S1024x128 .f32) : FVec Ideal S2048x1024 .f32 :=
  matmul DG none (truncf .bf16 (shapeCast S2048x128 a shapeCasts_S2048x128_S2048x128) bitsLt_bf16_f32)
    (truncf .bf16 (shapeCast S1024x128 b shapeCasts_S1024x128_S1024x128) bitsLt_bf16_f32)
    (constant S2048x1024 .f32 0x00000000#32)

/-- The stored value is the sum of the two norm parts minus twice the inner products. -/
theorem pay_split (a : Vec Ideal S2048x128 .f32) (b : Vec Ideal S1024x128 .f32) :
    k1_pay1 (F := Ideal) a b
      = subf (addf (normsA a) (normsB b)) (mulf (broadcast S2048x1024 (Scalar.ofBits .f32 0x40000000#32)) (gram a b)) := rfl

/-! ## Each part at an index -/

theorem rowSqA_apply (v : FVec Ideal S2048x128 .f32) (p : Fin 2048) :
    rowSqA v (ix1 p) = ∑ k : Fin 128, v (ix2 p k) * v (ix2 p k) := by
  unfold rowSqA
  refine (Ideal.multiReduction_add_single (mulf v v) _ reduces_S2048x128_S2048 (.inl rfl) rfl (ix1 p)).trans ?_
  refine Finset.sum_congr rfl fun k _ => ?_
  exact congrArg (fun j => v j * v j) (funext fun a => Fin.ext (by match a with | ⟨0, _⟩ => rfl | ⟨1, _⟩ => rfl))

theorem rowSqB_apply (v : FVec Ideal S1024x128 .f32) (q : Fin 1024) :
    rowSqB v (ix1 q) = ∑ k : Fin 128, v (ix2 q k) * v (ix2 q k) := by
  unfold rowSqB
  refine (Ideal.multiReduction_add_single (mulf v v) _ reduces_S1024x128_S1024 (.inl rfl) rfl (ix1 q)).trans ?_
  refine Finset.sum_congr rfl fun k _ => ?_
  exact congrArg (fun j => v j * v j) (funext fun a => Fin.ext (by match a with | ⟨0, _⟩ => rfl | ⟨1, _⟩ => rfl))

theorem normsA_apply (a : Vec Ideal S2048x128 .f32) (p : Fin 2048) (q : Fin 1024) :
    normsA a (ix2 p q) = ∑ k : Fin 128, a (ix2 p k) * a (ix2 p k) := by
  unfold normsA
  refine (broadcastTo_a1_ab_apply _ broadcasts_S2048x1_S2048x1024 p q).trans ?_
  refine (shapeCast_a_a1_apply _ shapeCasts_S2048_S2048x1 p 0).trans ?_
  rw [shapeCast_self]
  exact rowSqA_apply a p

theorem normsB_apply (b : Vec Ideal S1024x128 .f32) (p : Fin 2048) (q : Fin 1024) :
    normsB b (ix2 p q) = ∑ k : Fin 128, b (ix2 q k) * b (ix2 q k) := by
  unfold normsB
  refine (broadcastTo_1b_ab_apply _ broadcasts_S1x1024_S2048x1024 p q).trans ?_
  refine (transpose_ix2_apply _ transposes_S1024x1_p1_0_S1x1024 0 q).trans ?_
  refine (shapeCast_a_a1_apply _ shapeCasts_S1024_S1024x1 q 0).trans ?_
  rw [shapeCast_self]
  exact rowSqB_apply b q

theorem lhs_row (i : S2048x1024.Idx) (c : DG.contr.Idx) : (DG.lhsIdx i c 0).val = (i 0).val := by
  unfold DotDims.lhsIdx
  rw [dif_neg (show ¬(0 : Fin S2048x128.rank) ∈ DG.lhsBatch by decide),
    dif_pos (show (0 : Fin S2048x128.rank) ∈ DG.lhsNonContracting by decide)]
  rfl
theorem lhs_col (i : S2048x1024.Idx) (c : DG.contr.Idx) : (DG.lhsIdx i c 1).val = (c ⟨0, by decide⟩).val :=
  DG.lhsIdx_val_of_single rfl i c
theorem rhs_row (i : S2048x1024.Idx) (c : DG.contr.Idx) : (DG.rhsIdx i c 0).val = (i 1).val := by
  unfold DotDims.rhsIdx
  rw [dif_neg (show ¬(0 : Fin S1024x128.rank) ∈ DG.rhsBatch by decide),
    dif_pos (show (0 : Fin S1024x128.rank) ∈ DG.rhsNonContracting by decide)]
  rfl
theorem rhs_col (i : S2048x1024.Idx) (c : DG.contr.Idx) : (DG.rhsIdx i c 1).val = (c ⟨0, by decide⟩).val :=
  DG.rhsIdx_val_of_single rfl i c

theorem gram_apply (a : Vec Ideal S2048x128 .f32) (b : Vec Ideal S1024x128 .f32) (p : Fin 2048) (q : Fin 1024) :
    gram a b (ix2 p q) = ∑ k : Fin 128, a (ix2 p k) * b (ix2 q k) := by
  unfold gram
  refine (Ideal.matmul_constant_zero_apply DG none _ _ (ix2 p q)).trans ?_
  rw [← Equiv.sum_comp (contrEquiv1 DG 128 rfl rfl).symm]
  refine Finset.sum_congr rfl fun k _ => ?_
  have hk := contrEquiv1_symm_val DG 128 rfl rfl k
  have el : DG.lhsIdx (ix2 p q) ((contrEquiv1 DG 128 rfl rfl).symm k) = ix2 p k := funext fun x => Fin.ext (by
    match x with
    | ⟨0, _⟩ => exact lhs_row _ _
    | ⟨1, _⟩ => exact (lhs_col _ _).trans hk)
  have er : DG.rhsIdx (ix2 p q) ((contrEquiv1 DG 128 rfl rfl).symm k) = ix2 q k := funext fun x => Fin.ext (by
    match x with
    | ⟨0, _⟩ => exact rhs_row _ _
    | ⟨1, _⟩ => exact (rhs_col _ _).trans hk)
  rw [el, er, shapeCast_self, shapeCast_self]
  rfl

/-- The stored value at (p, q): (‖a p‖² + ‖b q‖²) − 2 · (a p · b q). -/
theorem pay_apply (a : Vec Ideal S2048x128 .f32) (b : Vec Ideal S1024x128 .f32) (p : Fin 2048) (q : Fin 1024) :
    k1_pay1 (F := Ideal) a b (ix2 p q)
      = ((∑ k : Fin 128, a (ix2 p k) * a (ix2 p k)) + ∑ k : Fin 128, b (ix2 q k) * b (ix2 q k))
        - Ideal.ofBits .f32 0x40000000#32 * ∑ k : Fin 128, a (ix2 p k) * b (ix2 q k) := by
  rw [pay_split]
  show (normsA a (ix2 p q) + normsB b (ix2 p q)) - Ideal.ofBits .f32 0x40000000#32 * gram a b (ix2 p q) = _
  rw [normsA_apply, normsB_apply, gram_apply]

end Cert.PairDist.Pair

end
-- ==== Proof.PairPiece.lean ====
/-
  What the pairwise kernel's body leaves in its output block.

  The body reads two groups of rows of its input — 2048 rows from the row offset of the grid point, 1024 rows from
  its column offset —, and stores once, over the whole output block. So the block after the body is the stored value
  of those two row groups, whatever the block held before. Stated for any float values.
-/
import proofs.«136250_j44040594653319_2_alg».proof.Proof.Gen.KernelIdeal.Frame
import Idealize.ShloMosaic.Lib.Pipeline.Value
import Idealize.ShloMosaic.Lib.Tactic

noncomputable section

namespace Cert.PairDist.Pair

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl

/-- The output block after the body: the stored value of the two row groups the body loads from its input `x`. -/
theorem piece (c : Dev nD) (i : grid1.Coords) (a2 : Memref sig .tc .vmem S8192x128 .f32) (h2 : a2.IsWhole)
    (a3 : Memref sig .tc .vmem S2048x1024 .f32) (h3 : a3.IsWhole) (x : Vec F S8192x128 .f32) :
    out1_A_1 c i a2 h2 a3 h3 x
      = k1_pay1 (View.ld x (Rect.unit (s := S8192x128) (k1_off1 i) S2048x128.size (k1_off1_inb i)))
          (View.ld x (Rect.unit (s := S8192x128) (k1_off2 i) S1024x128.size (k1_off2_inb i))) := by
  unfold out1_A_1
  rw [View.read_writes_eq_canon _ _ _ (cover1_A_1 c i a2 h2 a3 h3 x)]
  unfold kernelRun1_A
  dsimp only
  rw [View.canon_unit_zero hz2]
  simp only [View.readAt_eq_ld, h2.read_unread]

end Cert.PairDist.Pair

end
-- ==== Proof.PairValue.lean ====
/-
  What the second kernel leaves in its output array: the squared distances between the rows of its input.

  The grid of the pairwise kernel has 4 × 8 points. Point (i, j) holds the whole input `t` (8192 rows of 128), reads
  its rows 2048·i … 2048·i + 2047 and 1024·j … 1024·j + 1023, and writes back the block of the output at rows
  2048·i … and columns 1024·j …. The block's element (p, q) is (‖a p‖² + ‖b q‖²) − 2 · (a p · b q) with
  a p = t (2048·i + p) and b q = t (1024·j + q): the squared distance between rows 2048·i + p and 1024·j + q of `t`,
  which is what the whole-array function holds at that position. Entry (r, s) of the output lies in the block of point
  (r / 2048, s / 1024), so the blocks cover the array. The statement is made for any contents the region is entered
  with.
-/
import proofs.«136250_j44040594653319_2_alg».proof.Proof.Gen.KernelIdeal.Frame
import proofs.«136250_j44040594653319_2_alg».proof.Proof.Spec
import proofs.«136250_j44040594653319_2_alg».proof.Proof.PairPayload
import proofs.«136250_j44040594653319_2_alg».proof.Proof.PairPiece
import Idealize.ShloMosaic.Lib.Pipeline.Value

noncomputable section

namespace Cert.PairDist.Pair

open Idealize.ShloMosaic Idealize.ShloMosaic.TcCoe Idealize.ShloMosaic.ValueIdx Idealize.SL.Sem
open Idealize.ShloMosaic.Pipeline (Dat)
open Cert.KernelIdeal Cert.KernelIdeal.Gen Cert.PairDist

variable (V : (c : Dev nD) → (b : Ref sig .tc) → Buf (Elt Ideal) ((c : Thread nD τ).loc b))

/-- Over the grid: a point's coordinates are its output block's indices, at most (3, 7); the input's block index is
    (0, 0) at every point. -/
theorem grid_facts : ∀ t : Fin cfg1.N, (grid1.coords t 0).val = win1_1.index t (0 : Fin 2)
    ∧ (grid1.coords t 1).val = win1_1.index t (1 : Fin 2)
    ∧ win1_0.index t (0 : Fin 2) = 0 ∧ win1_0.index t (1 : Fin 2) = 0
    ∧ win1_1.index t (0 : Fin 2) ≤ 3 ∧ win1_1.index t (1 : Fin 2) ≤ 7 :=
  (by decide +kernel : ∀ t : Fin grid1.N, _)

/-- What point `t` writes back is its block of the squared distances between the rows of the input. -/
theorem flushed_eq (c : Dev nD) (t : Fin cfg1.N) :
    (dat1 V c).flushed 1 t = ((cfg1.win 1).blk t).view.read (Elt Ideal) (distArr (V c main_v0)) := by
  show (cfg1.win 1).cut (grid1.coords t) ((dat1 V c).after 1 t) = _
  rw [after1_1]
  unfold outsAt1
  rw [piece c (grid1.coords t) (ms1_0 t) (hs1_0 t) (ms1_1 t) (hs1_1 t) (iblk1 V c 0 t)]
  obtain ⟨g0, g1, e0, e1, b0, b1⟩ := grid_facts t
  have ho1 : k1_off1 (grid1.coords t) (0 : Fin 2) = 2048 * win1_1.index t (0 : Fin 2) := by
    rw [k1_off1_eq]; show 2048 * (grid1.coords t 0).val = _; rw [g0]
  have ho1' : k1_off1 (grid1.coords t) (1 : Fin 2) = 0 := by rw [k1_off1_eq]; rfl
  have ho2 : k1_off2 (grid1.coords t) (0 : Fin 2) = 1024 * win1_1.index t (1 : Fin 2) := by
    rw [k1_off2_eq]; show 1024 * (grid1.coords t 1).val = _; rw [g1]
  have ho2' : k1_off2 (grid1.coords t) (1 : Fin 2) = 0 := by rw [k1_off2_eq]; rfl
  funext j
  obtain ⟨p, q, rfl⟩ : ∃ (p : Fin 2048) (q : Fin 1024), j = ix2 p q := ⟨j 0, j 1, eq_ix2 j⟩
  show k1_pay1 (F := Ideal) _ _ (ix2 p q) = distArr (V c main_v0) (((cfg1.win 1).blk t).view.emb (ix2 p q))
  refine (pay_apply _ _ p q).trans ?_
  have hA : ∀ k : Fin 128,
      View.ld (iblk1 V c 0 t) (Rect.unit (s := S8192x128) (k1_off1 (grid1.coords t)) S2048x128.size (k1_off1_inb (grid1.coords t))) (ix2 p k)
        = V c main_v0 (ix2 (n0 := 8192) (n1 := 128) ((((cfg1.win 1).blk t).view.emb (ix2 p q)) 0) k) := fun k => by
    show V c main_v0 (((cfg1.win 0).blk t).view.emb
      ((Rect.unit (s := S8192x128) (k1_off1 (grid1.coords t)) S2048x128.size (k1_off1_inb (grid1.coords t))).emb (ix2 p k))) = _
    refine congrArg (V c main_v0) (funext fun a => Fin.ext ?_)
    match a with
    | ⟨0, _⟩ =>
      show win1_0.index t (0 : Fin 2) * 8192 + 1 * (k1_off1 (grid1.coords t) (0 : Fin 2) + 1 * p.val)
        = win1_1.index t (0 : Fin 2) * 2048 + 1 * p.val
      rw [ho1, e0]; omega
    | ⟨1, _⟩ =>
      show win1_0.index t (1 : Fin 2) * 128 + 1 * (k1_off1 (grid1.coords t) (1 : Fin 2) + 1 * k.val) = k.val
      rw [ho1', e1]; omega
  have hB : ∀ k : Fin 128,
      View.ld (iblk1 V c 0 t) (Rect.unit (s := S8192x128) (k1_off2 (grid1.coords t)) S1024x128.size (k1_off2_inb (grid1.coords t))) (ix2 q k)
        = V c main_v0 (ix2 (n0 := 8192) (n1 := 128) ((((cfg1.win 1).blk t).view.emb (ix2 p q)) 1) k) := fun k => by
    show V c main_v0 (((cfg1.win 0).blk t).view.emb
      ((Rect.unit (s := S8192x128) (k1_off2 (grid1.coords t)) S1024x128.size (k1_off2_inb (grid1.coords t))).emb (ix2 q k))) = _
    refine congrArg (V c main_v0) (funext fun a => Fin.ext ?_)
    match a with
    | ⟨0, _⟩ =>
      show win1_0.index t (0 : Fin 2) * 8192 + 1 * (k1_off2 (grid1.coords t) (0 : Fin 2) + 1 * q.val)
        = win1_1.index t (1 : Fin 2) * 1024 + 1 * q.val
      rw [ho2, e0]; omega
    | ⟨1, _⟩ =>
      show win1_0.index t (1 : Fin 2) * 128 + 1 * (k1_off2 (grid1.coords t) (1 : Fin 2) + 1 * k.val) = k.val
      rw [ho2', e1]; omega
  simp only [hA, hB]
  rfl

/-- An index of the output array is in point `t`'s block iff each coordinate is in the block's range on its axis. -/
theorem mem_blk (t : Fin cfg1.N) (i : S8192x8192.Idx) :
    i ∈ ((cfg1.win 1).blk t).view.set ↔ ∀ a : Fin 2, win1_1.index t a * S2048x1024.size a ≤ (i a).val
      ∧ (i a).val < win1_1.index t a * S2048x1024.size a + S2048x1024.size a := by
  show i ∈ ((View.whole main_v1).slice (win1_1.rect t)).set ↔ _
  rw [View.set_slice_whole, Rect.mem_set_unit]
  exact Iff.rfl

/-- Every block of the output is some point's. -/
theorem idx_onto : ∀ (q0 : Fin 4) (q1 : Fin 8), ∃ t : Fin cfg1.N, win1_1.index t = ![q0.val, q1.val] :=
  (by decide +kernel : ∀ (q0 : Fin 4) (q1 : Fin 8), ∃ t : Fin grid1.N, win1_1.index t = ![q0.val, q1.val])

/-- Entry (r, s) lies in the block of point (r / 2048, s / 1024): the blocks cover the output array. -/
theorem cover (i : S8192x8192.Idx) :
    ∃ t : Fin cfg1.N, (cfg1.win 1).flush t = true ∧ i ∈ ((cfg1.win 1).blk t).view.set := by
  have hi0 : (i 0).val < 8192 := (i 0).isLt
  have hi1 : (i 1).val < 8192 := (i 1).isLt
  obtain ⟨t, ht⟩ := idx_onto ⟨(i 0).val / 2048, by omega⟩ ⟨(i 1).val / 1024, by omega⟩
  have q0 : win1_1.index t (0 : Fin 2) = (i 0).val / 2048 := congrFun ht 0
  have q1 : win1_1.index t (1 : Fin 2) = (i 1).val / 1024 := congrFun ht 1
  refine ⟨t, flush1_1 t, ?_⟩
  rw [mem_blk]
  intro a
  match a with
  | ⟨0, _⟩ => show win1_1.index t (0 : Fin 2) * 2048 ≤ (i 0).val ∧ (i 0).val < win1_1.index t (0 : Fin 2) * 2048 + 2048; omega
  | ⟨1, _⟩ => show win1_1.index t (1 : Fin 2) * 1024 ≤ (i 1).val ∧ (i 1).val < win1_1.index t (1 : Fin 2) * 1024 + 1024; omega

/-- The second kernel's output array ends holding the squared distances between the rows of the array it was
    entered with. -/
theorem final (c : Dev nD) : (dat1 V c).arrAt 1 cfg1.N = distArr (V c main_v0) :=
  (dat1 V c).arrAt_eq_of_cover 1 (distArr (V c main_v0)) (fun t _ => flushed_eq V c t) cover

end Cert.PairDist.Pair

end
-- ==== Proof.KernelValue.lean ====
/-
  The two-kernel program computes the squared pairwise distances of the projected rows.

  The first region leaves the projected matrix `pe · w` of the launched arguments in the intermediate array; the
  second region is entered with that array and leaves, in the result array, the squared distances between its rows.
  Composing the two: every weakly fair execution ends with the result array holding the squared distances between the
  rows of `pe · w`, the arguments as launched.
-/
import proofs.«136250_j44040594653319_2_alg».proof.Proof.KernelRun
import proofs.«136250_j44040594653319_2_alg».proof.Proof.ProjValue
import proofs.«136250_j44040594653319_2_alg».proof.Proof.PairValue

noncomputable section

namespace Cert.PairDist.Kernel

open Idealize.ShloMosaic Idealize.ShloMosaic.TcCoe Idealize.SL.Sem
open Cert.KernelIdeal Cert.KernelIdeal.Gen Cert.PairDist

variable (m : (ℓ : Loc nD τ sig) → Buf (Elt Ideal) ℓ) (ρ : Dev nD → PrngReg)

/-- The intermediate array, when the second region is entered, is the projected matrix of the launched arguments. -/
theorem mid_eq (c : Dev nD) :
    V1 m ρ c main_v0 = projArr (m ((c.tc : Thread nD τ).loc main_arg0)) (m ((c.tc : Thread nD τ).loc main_arg1)) :=
  (W1_arr m ρ c 2).trans (Proj.final (V0 m ρ) c)

/-- The result array after the second region: the squared distances between the projected rows. -/
theorem result_eq (c : Dev nD) :
    W2 m ρ c (Proc.devRef .tc main_v1)
      = distArr (projArr (m ((c.tc : Thread nD τ).loc main_arg0)) (m ((c.tc : Thread nD τ).loc main_arg1))) :=
  (W2_arr m ρ c 1).trans ((Pair.final (V1 m ρ) c).trans (congrArg distArr (mid_eq m ρ c)))

/-- The program's run on the extended reals: the result array at the squared distances between the rows of
    `pe · w`, the arguments unchanged. -/
theorem run : θ_run defs (onTc (τ := τ) (main (F := Ideal))) ⟨m, fun _ => 0, ρ⟩ (fun r => ∀ c : Dev nD,
      r.2.mem ((c.tc : Thread nD τ).loc main_v1)
        = distArr (projArr (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m ρ c), (h c).2⟩) (run_named m ρ)

end Cert.PairDist.Kernel

end
-- ==== Proof.lean ====
/-
  Squared pairwise distances of projected rows: the kernel pair against the host reference.

  The reference multiplies the 8192 × 768 input by the 768 × 128 projection, takes the squared norm of every
  projected row and the inner product of every two rows, and returns (‖t r‖² + ‖t s‖²) − 2 · (t r · t s) at (r, s).
  The kernel does the same in two launches: the first writes the projected matrix block by block; the second,
  holding the whole projected matrix, writes each 2048 × 1024 block of the result from the 2048 rows and the 1024
  rows the block pairs. On the extended reals a change of float format is the identity and a finite sum has no
  order, so both programs end with one and the same function of the arguments (`PairDist.distArr` of
  `PairDist.projArr`), entry by entry; no finiteness of the inputs is used.

  The frame claims are the generated runs; the ideal pass rewrote nothing, so the idealization claim is trivial.
-/
import proofs.«136250_j44040594653319_2_alg».proof.Defs
import proofs.«136250_j44040594653319_2_alg».proof.Proof.Gen.Kernel
import proofs.«136250_j44040594653319_2_alg».proof.Proof.Gen.Kernel.Frame
import proofs.«136250_j44040594653319_2_alg».proof.Proof.Gen.KernelIdeal
import proofs.«136250_j44040594653319_2_alg».proof.Proof.Gen.KernelIdeal.Frame
import proofs.«136250_j44040594653319_2_alg».proof.Proof.Gen.ReferenceIdeal
import proofs.«136250_j44040594653319_2_alg».proof.Proof.Gen.ReferenceIdeal.Run
import proofs.«136250_j44040594653319_2_alg».proof.Proof.Gen.ReferenceIdeal.Read
import proofs.«136250_j44040594653319_2_alg».proof.Proof.Gen.Pre_finite_inputs
import proofs.«136250_j44040594653319_2_alg».proof.Proof.RefIsSpec
import proofs.«136250_j44040594653319_2_alg».proof.Proof.KernelValue

noncomputable section

namespace Cert.Proof

open Idealize.ShloMosaic Idealize.SL.Sem Cert.PairDist

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the squared distances between the rows of `pe · w`: the kernel pair by its two regions'
    values, the reference by its operations read one at a time, from arguments that agree. -/
theorem algebraic : Cert.algebraic_KernelIdeal_ReferenceIdeal := by
  intro m ρ m' ρ' _ hagree
  refine ⟨fun c => distArr (projArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.PairDist.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.PairDist.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
